-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S32768x1024 : Shape := ⟨2, ![32768, 1024]⟩
abbrev S32 : Shape := ⟨1, ![32]⟩
abbrev S_ : Shape := ⟨0, ![]⟩

class Facts : Prop where
  bcast_S_S32768x32 : S_.BroadcastsInDim S32768x32 (![] : Fin 0 → Fin S32768x32.rank)
  reducesTo_S32768x32_S_d0_1 : S32768x32.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32768x32 .f32) (main_arg1 : FVec F S32768x1024 .f32) (main_arg2 : FVec F S32 .f32) : IVec S_ 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_c : IVec S_ 1 := constantI S_ 1 1#1
  let main_v3 : IVec S_ 1 := (fun x v => Host.reduce IntOp.andi x v reducesTo_S32768x32_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32768x32 : Shape := ⟨2, ![32768, 32]⟩
abbrev S32768x1024 : Shape := ⟨2, ![32768, 1024]⟩
abbrev S32 : Shape := ⟨1, ![32]⟩
abbrev S2x32x1024 : Shape := ⟨3, ![2, 32, 1024]⟩
abbrev S2048x32 : Shape := ⟨2, ![2048, 32]⟩
abbrev S2048x1024 : Shape := ⟨2, ![2048, 1024]⟩
abbrev S1x32x1024 : Shape := ⟨3, ![1, 32, 1024]⟩
abbrev S32x1024 : Shape := ⟨2, ![32, 1024]⟩
abbrev S_ : Shape := ⟨0, ![]⟩
abbrev S32x1 : Shape := ⟨2, ![32, 1]⟩

abbrev nBuf : Space → Nat
  | .hbm => 16
  | .vmem => 7
  | .smem => 0
  | _ => 0

abbrev bufTy : (tb : Table) → Fin (tcTables nBuf tb) → BufTy
  | .hbm, ⟨0, _⟩ => ⟨S32768x32, .f32⟩
  | .hbm, ⟨1, _⟩ => ⟨S32768x1024, .f32⟩
  | .hbm, ⟨2, _⟩ => ⟨S32, .f32⟩
  | .hbm, ⟨3, _⟩ => ⟨S2x32x1024, .f32⟩
  | .hbm, ⟨4, _⟩ => ⟨S_, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S32x1, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32, .f32⟩
  | .hbm, ⟨15, _⟩ => ⟨S32, .f32⟩
  | .local _ .vmem, ⟨0, _⟩ => ⟨S2048x32, .f32⟩
  | .local _ .vmem, ⟨1, _⟩ => ⟨S2048x32, .f32⟩
  | .local _ .vmem, ⟨2, _⟩ => ⟨S2048x1024, .f32⟩
  | .local _ .vmem, ⟨3, _⟩ => ⟨S2048x1024, .f32⟩
  | .local _ .vmem, ⟨4, _⟩ => ⟨S1x32x1024, .f32⟩
  | .local _ .vmem, ⟨5, _⟩ => ⟨S1x32x1024, .f32⟩
  | .local _ .vmem, ⟨6, _⟩ => ⟨S32x1024, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S2048x32_S2048x32_0_0 : ∀ a, (![0, 0] : Fin 2 → Nat) a + S2048x32.size a ≤ S2048x32.size a
  h_S2048x32 : 0 < S2048x32.numel
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  reducesTo_S2x32x1024_S32x1024_d0 : S2x32x1024.ReducesTo [0] S32x1024
  h_S_ : 0 < S_.numel
  bcast_S_S32x1024 : S_.BroadcastsInDim S32x1024 (![] : Fin 0 → Fin S32x1024.rank)
  bcast_S32_S32x1_0 : S32.BroadcastsInDim S32x1 (![0] : Fin 1 → Fin S32x1.rank)
  bcast_S32x1_S32x1024_0_1 : S32x1.BroadcastsInDim S32x1024 (![0, 1] : Fin 2 → Fin S32x1024.rank)
  reducesTo_S32x1024_S32_d1 : S32x1024.ReducesTo [1] S32
  dot_S2048x32_S2048x1024_S32x1024_0_0_1_1_n_n_wf : DotDims.WF S2048x32 S2048x1024 S32x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S32768x32.size a
  hwx0_0 : ∀ i : grid0.Coords, EltTy.bits .f32 = 32 ∨ (Rect.block (s := S32768x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .f32 = 32 ∨ (Rect.block (s := S32768x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1024.size a ≤ S2x32x1024.size a
  hwx0_2 : ∀ i : grid0.Coords, EltTy.bits .f32 = 32 ∨ (Rect.block (s := S2x32x1024) S1x32x1024.size (cc0_transform_2 i) (hinb0_2 i)).WholeWords (EltTy.packing .f32)

variable [Facts₀]

def dot_S2048x32_S2048x1024_S32x1024_0_0_1_1_n_n : DotDims S2048x32 S2048x1024 S32x1024 where
  lhsContracting := [0]
  rhsContracting := [0]
  lhsNonContracting := [1]
  rhsNonContracting := [1]
  lhsBatch := []
  rhsBatch := []
  wf := dot_S2048x32_S2048x1024_S32x1024_0_0_1_1_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x32 : Shape := ⟨2, ![32768, 32]⟩
abbrev S32768x1024 : Shape := ⟨2, ![32768, 1024]⟩
abbrev S32 : Shape := ⟨1, ![32]⟩
abbrev S1x32 : Shape := ⟨2, ![1, 32]⟩
abbrev S32x1024 : Shape := ⟨2, ![32, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S32768x1024, .f32⟩
  | .hbm, ⟨2, _⟩ => ⟨S32, .f32⟩
  | .hbm, ⟨3, _⟩ => ⟨S1x32, .f32⟩
  | .hbm, ⟨4, _⟩ => ⟨S32768x32, .f32⟩
  | .hbm, ⟨5, _⟩ => ⟨S32768x32, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32, .f32⟩
  | .hbm, ⟨13, _⟩ => ⟨S32, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32x1024 : S_.BroadcastsInDim S32x1024 (![] : Fin 0 → Fin S32x1024.rank)
  reducesTo_S32x1024_S32_d1 : S32x1024.ReducesTo [1] S32
  h_S_ : 0 < S_.numel
  dot_S32768x32_S32768x1024_S32x1024_0_0_1_1_n_n_wf : DotDims.WF S32768x32 S32768x1024 S32x1024 [0] [0] [1] [1] [] []

variable [Facts₀]

def dot_S32768x32_S32768x1024_S32x1024_0_0_1_1_n_n : DotDims S32768x32 S32768x1024 S32x1024 where
  lhsContracting := [0]
  rhsContracting := [0]
  lhsNonContracting := [1]
  rhsNonContracting := [1]
  lhsBatch := []
  rhsBatch := []
  wf := dot_S32768x32_S32768x1024_S32x1024_0_0_1_1_n_n_wf

class Facts : Prop extends Facts₀ where

variable [Facts]
-- ==== Proof.Rows.lean ====
/-
  The batch of 32768 rows is cut into 16 tiles of 2048 rows, and the tiles into 2 groups of 8
  (one group per core). These are the two index maps of that cutting.
-/
import Mathlib

namespace GradNorm

/-- Row `r` of batch tile `t`: the batch row `2048 · t + r`. -/
def tileRow (t : Fin 16) (r : Fin 2048) : Fin 32768 :=
  ⟨2048 * t.val + r.val, by have := t.isLt; have := r.isLt; omega⟩

/-- Tile `i` of core `c`: the batch tile `8 · c + i`. -/
def coreTile (c : Fin 2) (i : Fin 8) : Fin 16 :=
  ⟨8 * c.val + i.val, by have := c.isLt; have := i.isLt; omega⟩

theorem tileRow_val (t : Fin 16) (r : Fin 2048) : (tileRow t r).val = 2048 * t.val + r.val := rfl
theorem coreTile_val (c : Fin 2) (i : Fin 8) : (coreTile c i).val = 8 * c.val + i.val := rfl

end GradNorm
-- ==== Proof.Spec.lean ====
/-
  What the two programs compute, entry by entry, over the extended reals.

  With `a` the [32768, 32] array of per-sample output gradients, `x` the [32768, 1024] array of
  inputs and `w` the 32 task weights, both programs return, for each task `o`, the Euclidean norm
  over `d` of an entry `E o d`:
    * one side forms, tile by tile and core by core, the sums of `a(b, o) · x(b, d)` over the
      batch rows `b`, adds the two cores' partial sums, scales by the float `2⁻¹⁵` and then by `w o`;
    * the other weights each row first, `(a(b, o) · w o) · x(b, d)`, sums over the whole batch
      and divides by the float `32768`.
  The two entries agree when every input is a real number (the weight then moves through the
  sum, and dividing by `2¹⁵` is multiplying by `2⁻¹⁵`).
-/
import Idealize.ShloMosaic.PureOps.Ideal
import Idealize.ShloMosaic.Lib.ValueIdx
import proofs.«147587_j89266600280080_2_alg».proof.Proof.Rows

noncomputable section

namespace GradNorm

open Idealize.ShloMosaic Idealize.ShloMosaic.ValueIdx

/-- The shapes of the three argument arrays. -/
abbrev SA : Shape := ⟨2, ![32768, 32]⟩
abbrev SX : Shape := ⟨2, ![32768, 1024]⟩
abbrev SW : Shape := ⟨1, ![32]⟩

/-- One batch tile's contribution to entry `(o, d)`: the sum over the tile's 2048 rows of
    `a(row, o) · x(row, d)`. -/
def tileDot (a : SA.Idx → EReal) (x : SX.Idx → EReal) (t : Fin 16) (o : Fin 32) (d : Fin 1024) : EReal :=
  ∑ r : Fin 2048, a (ix2 (tileRow t r) o) * x (ix2 (tileRow t r) d)

/-- One core's partial sum: its eight tiles' contributions. -/
def corePartial (a : SA.Idx → EReal) (x : SX.Idx → EReal) (c : Fin 2) (o : Fin 32) (d : Fin 1024) : EReal :=
  ∑ i : Fin 8, tileDot a x (coreTile c i) o d

/-- The entry of the blocked side: the two cores' partial sums added from zero, scaled by the
    float word `0x38000000` (`2⁻¹⁵`) and then by the task's weight. -/
def blockedEntry (a : SA.Idx → EReal) (x : SX.Idx → EReal) (w : SW.Idx → EReal) (o : Fin 32) (d : Fin 1024) : EReal :=
  ((0 + ∑ c : Fin 2, corePartial a x c o d) * Ideal.ofBits .f32 0x38000000#32) * w (ix1 o)

/-- The entry of the flat side: the weighted rows summed over the whole batch, divided by the
    float word `0x47000000` (`32768`). -/
def flatEntry (a : SA.Idx → EReal) (x : SX.Idx → EReal) (w : SW.Idx → EReal) (o : Fin 32) (d : Fin 1024) : EReal :=
  Ideal.div (∑ b : Fin 32768, (a (ix2 b o) * w (ix1 o)) * x (ix2 b d)) (Ideal.ofBits .f32 0x47000000#32)

/-- The Euclidean norm over `d` of a task's entries, as both programs take it: the squares summed
    from zero, then the square root. -/
def rowNorm (E : Fin 32 → Fin 1024 → EReal) (o : Fin 32) : EReal :=
  Ideal.sqrt (0 + ∑ d : Fin 1024, E o d * E o d)

end GradNorm

end
-- ==== Proof.Accum.lean ====
/-
  The scratch accumulator as a recursion on the tile number: at a core's first tile (tile
  number divisible by 8) it restarts from zero, at every other tile it adds the tile's
  contribution to what it held. At a core's last tile it holds that core's partial sum.
-/
import proofs.«147587_j89266600280080_2_alg».proof.Proof.Spec

noncomputable section

namespace GradNorm

open Idealize.ShloMosaic Idealize.ShloMosaic.ValueIdx

/-- A tile's contribution by the tile's NUMBER (zero past the sixteenth tile, which no point reaches). -/
def tileDotN (a : SA.Idx → EReal) (x : SX.Idx → EReal) (t : ℕ) (o : Fin 32) (d : Fin 1024) : EReal :=
  if h : t < 16 then tileDot a x ⟨t, h⟩ o d else 0

theorem tileDotN_of_lt (a : SA.Idx → EReal) (x : SX.Idx → EReal) (t : ℕ) (h : t < 16) (o : Fin 32) (d : Fin 1024) :
    tileDotN a x t o d = tileDot a x ⟨t, h⟩ o d := dif_pos h

/-- The accumulator after tile `n`. -/
def running (a : SA.Idx → EReal) (x : SX.Idx → EReal) : ℕ → Fin 32 → Fin 1024 → EReal
  | 0 => fun o d => 0 + tileDotN a x 0 o d
  | n + 1 => fun o d => (if (n + 1) % 8 = 0 then 0 else running a x n o d) + tileDotN a x (n + 1) o d

theorem running_zero (a : SA.Idx → EReal) (x : SX.Idx → EReal) (o : Fin 32) (d : Fin 1024) :
    running a x 0 o d = 0 + tileDotN a x 0 o d := rfl

theorem running_restart (a : SA.Idx → EReal) (x : SX.Idx → EReal) (n : ℕ) (h : (n + 1) % 8 = 0) (o : Fin 32) (d : Fin 1024) :
    running a x (n + 1) o d = 0 + tileDotN a x (n + 1) o d := by
  show (if (n + 1) % 8 = 0 then 0 else running a x n o d) + _ = _
  rw [if_pos h]

theorem running_step (a : SA.Idx → EReal) (x : SX.Idx → EReal) (n : ℕ) (h : ¬(n + 1) % 8 = 0) (o : Fin 32) (d : Fin 1024) :
    running a x (n + 1) o d = running a x n o d + tileDotN a x (n + 1) o d := by
  show (if (n + 1) % 8 = 0 then 0 else running a x n o d) + _ = _
  rw [if_neg h]

/-- In closed form: after tile `n` the accumulator is the sum of the contributions of the tiles
    `8·(n / 8), …, n` — those of `n`'s core up to `n`. -/
theorem running_eq_sum (a : SA.Idx → EReal) (x : SX.Idx → EReal) (o : Fin 32) (d : Fin 1024) :
    ∀ n : ℕ, running a x n o d = ∑ j ∈ Finset.range (n % 8 + 1), tileDotN a x (8 * (n / 8) + j) o d
  | 0 => by
    rw [running_zero, zero_add]
    simp
  | n + 1 => by
    by_cases h : (n + 1) % 8 = 0
    · rw [running_restart a x n h, zero_add, h]
      rw [Finset.sum_range_one]
      congr 1
      omega
    · rw [running_step a x n h, running_eq_sum a x o d n]
      have h1 : (n + 1) % 8 = n % 8 + 1 := by omega
      have h2 : (n + 1) / 8 = n / 8 := by omega
      rw [h1, h2, Finset.sum_range_succ (fun j => tileDotN a x (8 * (n / 8) + j) o d) (n % 8 + 1)]
      congr 2
      omega

/-- After a core's last tile the accumulator holds the core's partial sum. -/
theorem running_core (a : SA.Idx → EReal) (x : SX.Idx → EReal) (c : Fin 2) (o : Fin 32) (d : Fin 1024) :
    running a x (8 * c.val + 7) o d = corePartial a x c o d := by
  rw [running_eq_sum]
  have h1 : (8 * c.val + 7) % 8 + 1 = 8 := by omega
  have h2 : (8 * c.val + 7) / 8 = c.val := by omega
  rw [h1, h2, Finset.sum_range]
  unfold corePartial
  refine Finset.sum_congr rfl fun i _ => ?_
  have hi : 8 * c.val + i.val < 16 := by have := c.isLt; have := i.isLt; omega
  rw [tileDotN_of_lt a x _ hi]
  rfl

/-- The two cores' partial sums as one [2, 32, 1024] array. -/
def partials (a : SA.Idx → EReal) (x : SX.Idx → EReal) : (⟨3, ![2, 32, 1024]⟩ : Shape).Idx → EReal :=
  fun j => corePartial a x ⟨(j 0).val, (j 0).isLt⟩ ⟨(j 1).val, (j 1).isLt⟩ ⟨(j 2).val, (j 2).isLt⟩

theorem partials_ix3 (a : SA.Idx → EReal) (x : SX.Idx → EReal) (c : Fin 2) (o : Fin 32) (d : Fin 1024) :
    partials a x (ix3 c o d) = corePartial a x c o d := rfl

end GradNorm

end
-- ==== Proof.Payloads.lean ====
/-
  The three values the kernel body stores, read at one entry over the extended reals:
  the zero block, the accumulating block (the scratch plus the tile's product sum) and the
  block written out (the scratch itself, with a leading unit axis).
-/
import proofs.«147587_j89266600280080_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- The contraction runs over the tile's 2048 rows. At output entry `i` and contraction index `q`
    the left operand is read at row `q` … -/
theorem lhs_0 (i : S32x1024.Idx) (q : dot_S2048x32_S2048x1024_S32x1024_0_0_1_1_n_n.contr.Idx) :
    (dot_S2048x32_S2048x1024_S32x1024_0_0_1_1_n_n.lhsIdx i q 0).val = (q ⟨0, by decide⟩).val :=
  dot_S2048x32_S2048x1024_S32x1024_0_0_1_1_n_n.lhsIdx_val_of_single rfl i q
/-- … and column `i 0`; -/
theorem lhs_1 (i : S32x1024.Idx) (q : dot_S2048x32_S2048x1024_S32x1024_0_0_1_1_n_n.contr.Idx) :
    (dot_S2048x32_S2048x1024_S32x1024_0_0_1_1_n_n.lhsIdx i q 1).val = (i 0).val := by
  unfold DotDims.lhsIdx
  rw [dif_neg (show ¬(1 : Fin S2048x32.rank) ∈ dot_S2048x32_S2048x1024_S32x1024_0_0_1_1_n_n.lhsBatch by decide), dif_pos (show (1 : Fin S2048x32.rank) ∈ dot_S2048x32_S2048x1024_S32x1024_0_0_1_1_n_n.lhsNonContracting by decide)]
  rfl
/-- the right operand at row `q` … -/
theorem rhs_0 (i : S32x1024.Idx) (q : dot_S2048x32_S2048x1024_S32x1024_0_0_1_1_n_n.contr.Idx) :
    (dot_S2048x32_S2048x1024_S32x1024_0_0_1_1_n_n.rhsIdx i q 0).val = (q ⟨0, by decide⟩).val :=
  dot_S2048x32_S2048x1024_S32x1024_0_0_1_1_n_n.rhsIdx_val_of_single rfl i q
/-- … and column `i 1`. -/
theorem rhs_1 (i : S32x1024.Idx) (q : dot_S2048x32_S2048x1024_S32x1024_0_0_1_1_n_n.contr.Idx) :
    (dot_S2048x32_S2048x1024_S32x1024_0_0_1_1_n_n.rhsIdx i q 1).val = (i 1).val := by
  unfold DotDims.rhsIdx
  rw [dif_neg (show ¬(1 : Fin S2048x1024.rank) ∈ dot_S2048x32_S2048x1024_S32x1024_0_0_1_1_n_n.rhsBatch by decide), dif_pos (show (1 : Fin S2048x1024.rank) ∈ dot_S2048x32_S2048x1024_S32x1024_0_0_1_1_n_n.rhsNonContracting by decide)]
  rfl

/-- So at entry `(o, d)` and row `k` the operands are read at `(k, o)` and `(k, d)`. -/
theorem lhs_at (o : Fin 32) (d : Fin 1024) (k : Fin 2048) :
    dot_S2048x32_S2048x1024_S32x1024_0_0_1_1_n_n.lhsIdx (ix2 o d) ((contrEquiv1 dot_S2048x32_S2048x1024_S32x1024_0_0_1_1_n_n 2048 rfl rfl).symm k) = ix2 k o := by
  have hk := contrEquiv1_symm_val dot_S2048x32_S2048x1024_S32x1024_0_0_1_1_n_n 2048 rfl rfl k
  exact funext fun a => Fin.ext (by
    match a with
    | ⟨0, _⟩ => exact (lhs_0 _ _).trans hk
    | ⟨1, _⟩ => exact lhs_1 _ _)

theorem rhs_at (o : Fin 32) (d : Fin 1024) (k : Fin 2048) :
    dot_S2048x32_S2048x1024_S32x1024_0_0_1_1_n_n.rhsIdx (ix2 o d) ((contrEquiv1 dot_S2048x32_S2048x1024_S32x1024_0_0_1_1_n_n 2048 rfl rfl).symm k) = ix2 k d := by
  have hk := contrEquiv1_symm_val dot_S2048x32_S2048x1024_S32x1024_0_0_1_1_n_n 2048 rfl rfl k
  exact funext fun a => Fin.ext (by
    match a with
    | ⟨0, _⟩ => exact (rhs_0 _ _).trans hk
    | ⟨1, _⟩ => exact rhs_1 _ _)

/-- The accumulating store's value at entry `(o, d)`: what the scratch held there plus the sum over
    the tile's rows of `out(r, o) · in(r, d)` (the change of float format is the identity on the
    extended reals, and the product is accumulated from zero). -/
theorem pay2_apply (v3 : FVec Ideal S2048x32 .f32) (v4 : FVec Ideal S2048x1024 .f32) (v8 : FVec Ideal S32x1024 .f32)
    (o : Fin 32) (d : Fin 1024) :
    k0_pay2 (F := Ideal) v3 v4 v8 (ix2 o d) = v8 (ix2 o d) + ∑ r : Fin 2048, v3 (ix2 r o) * v4 (ix2 r d) := by
  unfold k0_pay2
  rw [shapeCast_self]
  refine (addf_apply _ _ _).trans (congrArg (v8 (ix2 o d) + ·) ?_)
  refine (Ideal.matmul_constant_zero_apply dot_S2048x32_S2048x1024_S32x1024_0_0_1_1_n_n none _ _ (ix2 o d)).trans ?_
  rw [← Equiv.sum_comp (contrEquiv1 dot_S2048x32_S2048x1024_S32x1024_0_0_1_1_n_n 2048 rfl rfl).symm]
  refine Finset.sum_congr rfl fun k _ => ?_
  rw [lhs_at, rhs_at]
  rfl

/-- The reset stores zero everywhere. -/
theorem pay1_apply (j : S32x1024.Idx) : k0_pay1 (F := Ideal) j = 0 := by
  unfold k0_pay1
  rw [shapeCast_self]
  exact Ideal.ofBits_zero_f32

/-- The block written out is the scratch with a leading unit axis: entry `(0, o, d)` is the scratch's `(o, d)`. -/
theorem pay3_apply (v16 : FVec Ideal S32x1024 .f32) (z : Fin 1) (o : Fin 32) (d : Fin 1024) :
    k0_pay3 (F := Ideal) v16 (ix3 z o d) = v16 (ix2 o d) := by
  unfold k0_pay3
  refine (shapeCast_addUnit_apply ![32, 1024] v16 _ (ix3 z o d)).trans (congrArg v16 ?_)
  funext a
  match a with
  | ⟨0, _⟩ => rfl
  | ⟨1, _⟩ => rfl

end Cert.KernelIdeal.Payloads

end
-- ==== Proof.Pieces.lean ====
/-
  What each of the kernel body's three control cases leaves behind, as values of the blocks it
  was given: at a core's first tile the scratch ends at the tile's product sum accumulated onto
  the zero block; at every later tile at the product sum accumulated onto what the scratch held;
  and at a core's last tile the output block is that accumulated scratch with a leading unit axis.
  These hold for any interpretation of the floats.
-/
import proofs.«147587_j89266600280080_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a core: the scratch is reset to the zero block, read back, and ends at the
    accumulating store's value over that zero block. -/
theorem scratch_first (c : Dev nD) (i : grid0.Coords) (arg2 : Memref sig .tc .vmem S2048x32 .f32) (harg2 : arg2.IsWhole) (arg3 : Memref sig .tc .vmem S2048x1024 .f32) (harg3 : arg3.IsWhole) (arg4 : Memref sig .tc .vmem S1x32x1024 .f32) (harg4 : arg4.IsWhole) (arg5 : Memref sig .tc .vmem S32x1024 .f32) (harg5 : arg5.IsWhole) (hc0 : cond0_0 i) (hc1 : ¬cond0_1 i)
    (x0 : Vec F S2048x32 .f32) (x1 : Vec F S2048x1024 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S32x1024) hz2, View.readCov_unit_zero (S := S32x1024) _ hz2]
  simp only [View.readAt_eq_ld, harg2.read_unread, harg3.read_unread, harg5.read_unread, View.ld_unit_zero (S := S2048x32) hz2, View.ld_unit_zero (S := S2048x1024) hz2, View.ld_unit_zero (S := S32x1024) hz2]

/-- A middle tile: the scratch ends at the accumulating store's value over what it held. -/
theorem scratch_middle (c : Dev nD) (i : grid0.Coords) (arg2 : Memref sig .tc .vmem S2048x32 .f32) (harg2 : arg2.IsWhole) (arg3 : Memref sig .tc .vmem S2048x1024 .f32) (harg3 : arg3.IsWhole) (arg4 : Memref sig .tc .vmem S1x32x1024 .f32) (harg4 : arg4.IsWhole) (arg5 : Memref sig .tc .vmem S32x1024 .f32) (harg5 : arg5.IsWhole) (hc0 : ¬cond0_0 i) (hc1 : ¬cond0_1 i)
    (x0 : Vec F S2048x32 .f32) (x1 : Vec F S2048x1024 .f32) (xs0 : Vec F S32x1024 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S2048x32) hz2, View.ld_unit_zero (S := S2048x1024) hz2, View.ld_unit_zero (S := S32x1024) hz2]

/-- Last tile of a core: the scratch likewise … -/
theorem scratch_last (c : Dev nD) (i : grid0.Coords) (arg2 : Memref sig .tc .vmem S2048x32 .f32) (harg2 : arg2.IsWhole) (arg3 : Memref sig .tc .vmem S2048x1024 .f32) (harg3 : arg3.IsWhole) (arg4 : Memref sig .tc .vmem S1x32x1024 .f32) (harg4 : arg4.IsWhole) (arg5 : Memref sig .tc .vmem S32x1024 .f32) (harg5 : arg5.IsWhole) (hc0 : ¬cond0_0 i) (hc1 : cond0_1 i)
    (x0 : Vec F S2048x32 .f32) (x1 : Vec F S2048x1024 .f32) (xs0 : Vec F S32x1024 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S2048x32) hz2, View.ld_unit_zero (S := S2048x1024) hz2, View.ld_unit_zero (S := S32x1024) hz2]

/-- … and the output block is the accumulated scratch, read back, with a leading unit axis. -/
theorem out_last (c : Dev nD) (i : grid0.Coords) (arg2 : Memref sig .tc .vmem S2048x32 .f32) (harg2 : arg2.IsWhole) (arg3 : Memref sig .tc .vmem S2048x1024 .f32) (harg3 : arg3.IsWhole) (arg4 : Memref sig .tc .vmem S1x32x1024 .f32) (harg4 : arg4.IsWhole) (arg5 : Memref sig .tc .vmem S32x1024 .f32) (harg5 : arg5.IsWhole) (hc0 : ¬cond0_0 i) (hc1 : cond0_1 i)
    (x0 : Vec F S2048x32 .f32) (x1 : Vec F S2048x1024 .f32) (xs0 : Vec F S32x1024 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S32x1024) _ hz2]
  simp only [View.readAt_eq_ld, harg2.read_unread, harg3.read_unread, harg5.read_unread, View.ld_unit_zero (S := S2048x32) hz2, View.ld_unit_zero (S := S2048x1024) hz2, View.ld_unit_zero (S := S32x1024) hz2]

end Cert.KernelIdeal.Pieces

end
-- ==== Proof.Blocks.lean ====
/-
  What an input window's block at a grid point holds, element by element, in terms of the argument
  arrays.

  The grid is `[2, 8]`: 16 points, point `t` being `(c, i)` with `t = 8 · c + i`. Both input windows
  cut their array along the rows into blocks of 2048 rows, and both send point `(c, i)` to block
  `(8 · c + i, 0)`, that is to block `(t, 0)`. A block's coordinate in the array is always
  `index × block size + 1 × the coordinate inside the block`, so element `(r, o)` of window 0's block at
  point `t` is element `(2048 · t + r, o)` of the first argument, and likewise for window 1 and the
  second argument.
-/
import proofs.«147587_j89266600280080_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F] (m : (ℓ : Loc nD τ sig) → Buf (Elt F) ℓ)

/-- At every grid point `t`, both input windows' block index is `(t, 0)`. -/
theorem idx_facts : ∀ t : Fin cfg0.N,
    win0_0.index t (0 : Fin 2) = t.val ∧ win0_0.index t (1 : Fin 2) = 0 ∧
    win0_1.index t (0 : Fin 2) = t.val ∧ win0_1.index t (1 : Fin 2) = 0 :=
  (by decide +kernel : ∀ t : Fin grid0.N, _)

/-- Element `(r, o)` of window 0's block at point `t` is element `(2048 · t + r, o)` of the first
    argument array. -/
theorem iblk0_apply (c : Dev nD) (t : Fin cfg0.N) (r : Fin 2048) (o : Fin 32) (b : Fin 32768)
    (hb : b.val = 2048 * t.val + r.val) :
    (iblk m c 0 t : Vec F S2048x32 .f32) (ix2 r o) = m ((c : Thread nD τ).loc main_arg0) (ix2 b o) := by
  unfold iblk
  rw [View.read_apply]
  show m ((c : Thread nD τ).loc main_arg0) _ = _
  refine congrArg _ ?_
  funext a
  apply Fin.ext
  match a with
  | ⟨0, _⟩ =>
    show win0_0.index t (0 : Fin 2) * 2048 + 1 * r.val = b.val
    rw [(idx_facts t).1, hb]; omega
  | ⟨1, _⟩ =>
    show win0_0.index t (1 : Fin 2) * 32 + 1 * o.val = o.val
    rw [(idx_facts t).2.1]; omega

/-- Element `(r, d)` of window 1's block at point `t` is element `(2048 · t + r, d)` of the second
    argument array. -/
theorem iblk1_apply (c : Dev nD) (t : Fin cfg0.N) (r : Fin 2048) (d : Fin 1024) (b : Fin 32768)
    (hb : b.val = 2048 * t.val + r.val) :
    (iblk m c 1 t : Vec F S2048x1024 .f32) (ix2 r d) = m ((c : Thread nD τ).loc main_arg1) (ix2 b d) := by
  unfold iblk
  rw [View.read_apply]
  show m ((c : Thread nD τ).loc main_arg1) _ = _
  refine congrArg _ ?_
  funext a
  apply Fin.ext
  match a with
  | ⟨0, _⟩ =>
    show win0_1.index t (0 : Fin 2) * 2048 + 1 * r.val = b.val
    rw [(idx_facts t).2.2.1, hb]; omega
  | ⟨1, _⟩ =>
    show win0_1.index t (1 : Fin 2) * 1024 + 1 * d.val = d.val
    rw [(idx_facts t).2.2.2]; omega

end Cert.KernelIdeal.Blocks

end
-- ==== Proof.Invariant.lean ====
/-
  The accumulator, point by point. At grid point `t` (core `t / 8`, tile `t`) the two input
  blocks are rows `2048·t … 2048·t + 2047` of the argument arrays, so the accumulating store adds
  tile `t`'s contribution; by induction on the point the scratch after point `n` holds the
  running sum of the tiles of `n`'s core, and at a core's last tile the output block holds the
  same values under a leading unit axis.
-/
import proofs.«147587_j89266600280080_2_alg».proof.Proof.Gen.KernelIdeal.Frame
import proofs.«147587_j89266600280080_2_alg».proof.Proof.Payloads
import proofs.«147587_j89266600280080_2_alg».proof.Proof.Pieces
import proofs.«147587_j89266600280080_2_alg».proof.Proof.Blocks
import proofs.«147587_j89266600280080_2_alg».proof.Proof.Accum

set_option maxRecDepth 16384

noncomputable section

namespace Cert.KernelIdeal.Invariant

open Cert.KernelIdeal Cert.KernelIdeal.Gen GradNorm Idealize.ShloMosaic Idealize.ShloMosaic.TcCoe Idealize.ShloMosaic.ValueIdx Idealize.SL.Sem

variable (m : (ℓ : Loc nD τ sig) → Buf (Elt Ideal) ℓ)

/-- One point's accumulating store over the point's input blocks, at entry `(o, d)`: what the
    scratch held there plus tile `t`'s contribution. -/
theorem step_value (c : Dev nD) (t : Fin cfg0.N) (xs : FVec Ideal S32x1024 .f32) (o : Fin 32) (d : Fin 1024) :
    k0_pay2 (F := Ideal) (iblk m c 0 t) (iblk m c 1 t) xs (ix2 o d)
      = xs (ix2 o d) + tileDotN (m ((c : Thread nD τ).loc main_arg0)) (m ((c : Thread nD τ).loc main_arg1)) t.val o d := by
  have ht : t.val < 16 := lt_of_lt_of_eq t.isLt (show cfg0.N = 16 from N_0)
  refine (Payloads.pay2_apply (iblk m c 0 t) (iblk m c 1 t) xs o d).trans (congrArg (xs (ix2 o d) + ·) ?_)
  rw [tileDotN_of_lt _ _ _ ht]
  unfold tileDot
  refine Finset.sum_congr rfl fun r _ => ?_
  exact congrArg₂ (· * ·) (Blocks.iblk0_apply m c t r o (tileRow ⟨t.val, ht⟩ r) rfl)
    (Blocks.iblk1_apply m c t r d (tileRow ⟨t.val, ht⟩ r) rfl)

/-- After point `n` the scratch holds the running sum. -/
theorem scratch_eq (c : Dev nD) : ∀ (n : ℕ) (hn : n < cfg0.N) (o : Fin 32) (d : Fin 1024),
    (outsAt0 m c n hn).2 (ix2 o d) = running (m ((c : Thread nD τ).loc main_arg0)) (m ((c : Thread nD τ).loc main_arg1)) n o d
  | 0, hn, o, d => by
    rw [outsAt0_A m c ⟨0, hn⟩ rfl (show ¬(0 % 8 = 7) by decide)]
    dsimp only
    rw [Pieces.scratch_first]
    refine (step_value m c ⟨0, hn⟩ _ o d).trans ?_
    rw [Payloads.pay1_apply, running_zero]
  | n + 1, hn, o, d => by
    by_cases h0 : (n + 1) % 8 = 0
    · have h1 : ¬(n + 1) % 8 = 7 := by omega
      rw [outsAt0_A m c ⟨n + 1, hn⟩ h0 h1]
      dsimp only
      rw [Pieces.scratch_first]
      refine (step_value m c ⟨n + 1, hn⟩ _ o d).trans ?_
      rw [Payloads.pay1_apply, running_restart _ _ n h0]
    · by_cases h1 : (n + 1) % 8 = 7
      · rw [outsAt0_C m c ⟨n + 1, hn⟩ h0 h1]
        dsimp only
        rw [Pieces.scratch_last]
        refine (step_value m c ⟨n + 1, hn⟩ _ o d).trans ?_
        rw [running_step _ _ n h0]
        show (outsAt0 m c n _).2 (ix2 o d) + _ = _
        rw [scratch_eq c n _ o d]
      · rw [outsAt0_B m c ⟨n + 1, hn⟩ h0 h1]
        dsimp only
        rw [Pieces.scratch_middle]
        refine (step_value m c ⟨n + 1, hn⟩ _ o d).trans ?_
        rw [running_step _ _ n h0]
        show (outsAt0 m c n _).2 (ix2 o d) + _ = _
        rw [scratch_eq c n _ o d]

/-- At a core's last tile the output block holds the running sum too (the scratch read back,
    with a leading unit axis). -/
theorem out_eq (c : Dev nD) (t : Fin cfg0.N) (h0 : ¬t.val % 8 = 0) (h1 : t.val % 8 = 7) (z : Fin 1) (o : Fin 32) (d : Fin 1024) :
    (outsAt0 m c t.val t.isLt).1 (ix3 z o d) = running (m ((c : Thread nD τ).loc main_arg0)) (m ((c : Thread nD τ).loc main_arg1)) t.val o d := by
  rw [← scratch_eq m c t.val t.isLt o d, outsAt0_C m c t h0 h1]
  dsimp only
  rw [Pieces.out_last, Pieces.scratch_last]
  exact Payloads.pay3_apply _ z o d

end Cert.KernelIdeal.Invariant

end
-- ==== Proof.Partials.lean ====
/-
  The output array of the region, whole: the two cores' partial sums.

  The output is a [2, 32, 1024] array written back in blocks [1, 32, 1024]; block `c` is written
  back once, at the last of core `c`'s eight tiles (the grid point `8·c + 7`), and what is written
  there is the accumulator after that tile, which is core `c`'s partial sum. The two blocks tile
  the array, so after the run the array holds the partial sums at every index.
-/
import proofs.«147587_j89266600280080_2_alg».proof.Proof.Gen.KernelIdeal.Frame
import proofs.«147587_j89266600280080_2_alg».proof.Proof.Accum
import proofs.«147587_j89266600280080_2_alg».proof.Proof.Invariant
import Idealize.ShloMosaic.Lib.Pipeline.Value
import Idealize.ShloMosaic.Lib.ValueIdx

set_option maxRecDepth 16384

noncomputable section

namespace Cert.KernelIdeal.Partials

open Cert.KernelIdeal Cert.KernelIdeal.Gen GradNorm Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The output's block index at grid point `t`, decided over the grid: `t / 8` on the core axis, 0 on the other two. -/
theorem idx_facts2 : ∀ t : Fin cfg0.N, win0_2.index t (0 : Fin 3) = t.val / 8 ∧ win0_2.index t (1 : Fin 3) = 0 ∧ win0_2.index t (2 : Fin 3) = 0 :=
  (by decide +kernel : ∀ t : Fin grid0.N, _)

/-- An index of the array is in point `t`'s block iff each coordinate is in the block's range on its axis. -/
theorem mem_blk (t : Fin cfg0.N) (i : S2x32x1024.Idx) :
    i ∈ ((cfg0.win 2).blk t).view.set ↔ ∀ a : Fin 3, win0_2.index t a * S1x32x1024.size a ≤ (i a).val ∧ (i a).val < win0_2.index t a * S1x32x1024.size a + S1x32x1024.size a := by
  show i ∈ ((View.whole main_v0).slice (win0_2.rect t)).set ↔ _
  rw [View.set_slice_whole, Rect.mem_set_unit]
  exact Iff.rfl

/-- One element of what a flushing point leaves in the output's staging buffer: at block index
    `(z, o, d)` it is the accumulator after tile `t`, and `t = 8·(t / 8) + 7` is the last tile of core
    `t / 8`, so it is that core's partial sum — the array of partial sums read at the element's place
    `(t / 8, o, d)` in the whole array. -/
theorem flushed_at (c : Dev nD) (t : Fin cfg0.N) (h0 : ¬t.val % 8 = 0) (h1 : t.val % 8 = 7) (y : S1x32x1024.Idx) :
    (outsAt0 m c t.val t.isLt).1 y = partials (m ((c : Thread nD τ).loc main_arg0)) (m ((c : Thread nD τ).loc main_arg1)) (((cfg0.win 2).blk t).view.emb y) := by
  obtain ⟨z, o, d, rfl⟩ : ∃ (z : Fin 1) (o : Fin 32) (d : Fin 1024), y = ix3 z o d := ⟨y 0, y 1, y 2, eq_ix3 y⟩
  rw [Invariant.out_eq m c t h0 h1 z o d]
  have hN : t.val < 16 := lt_of_lt_of_eq t.isLt (show cfg0.N = 16 from N_0)
  have hc : t.val / 8 < 2 := by omega
  have hemb : ((cfg0.win 2).blk t).view.emb (ix3 z o d) = ix3 (⟨t.val / 8, hc⟩ : Fin 2) o d := by
    obtain ⟨e0, e1, e2⟩ := idx_facts2 t
    funext a; apply Fin.ext
    match a with
    | ⟨0, _⟩ => show win0_2.index t (0 : Fin 3) * 1 + 1 * z.val = t.val / 8; have := z.isLt; omega
    | ⟨1, _⟩ => show win0_2.index t (1 : Fin 3) * 32 + 1 * o.val = o.val; omega
    | ⟨2, _⟩ => show win0_2.index t (2 : Fin 3) * 1024 + 1 * d.val = d.val; omega
  rw [hemb, partials_ix3]
  have ht : t.val = 8 * (t.val / 8) + 7 := by omega
  exact (congrArg (fun n => running (m ((c : Thread nD τ).loc main_arg0)) (m ((c : Thread nD τ).loc main_arg1)) n o d) ht).trans
    (running_core (m ((c : Thread nD τ).loc main_arg0)) (m ((c : Thread nD τ).loc main_arg1)) ⟨t.val / 8, hc⟩ o d)

/-- What a flushing point writes back is its block of the array of partial sums. -/
theorem flushed_eq (c : Dev nD) (t : Fin cfg0.N) (hf : (cfg0.win 2).flush t = true) :
    (dats m 0 c).flushed 2 t = ((cfg0.win 2).blk t).view.read (Elt Ideal) (partials (m ((c : Thread nD τ).loc main_arg0)) (m ((c : Thread nD τ).loc main_arg1))) := by
  show (cfg0.win 2).cut (grid0.coords t) ((dats m 0 c).after 2 t) = _
  rw [after0_2]
  have h1 : t.val % 8 = 7 := (flush0_2 t).mp hf
  have h0 : ¬t.val % 8 = 0 := by omega
  funext y
  exact flushed_at m c t h0 h1 y

/-- Every index `(c, o, d)` of the array lies in the block written back at the grid point `8·c + 7`. -/
theorem cover (i : S2x32x1024.Idx) :
    ∃ t : Fin cfg0.N, (cfg0.win 2).flush t = true ∧ i ∈ ((cfg0.win 2).blk t).view.set := by
  have hi0 : (i 0).val < 2 := (i 0).isLt
  have hi1 : (i 1).val < 32 := (i 1).isLt
  have hi2 : (i 2).val < 1024 := (i 2).isLt
  have hlt : 8 * (i 0).val + 7 < cfg0.N := by rw [show cfg0.N = 16 from N_0]; omega
  refine ⟨⟨8 * (i 0).val + 7, hlt⟩, (flush0_2 _).mpr (by show (8 * (i 0).val + 7) % 8 = 7; omega), ?_⟩
  rw [mem_blk]
  obtain ⟨e0, e1, e2⟩ := idx_facts2 ⟨8 * (i 0).val + 7, hlt⟩
  have e0' : win0_2.index ⟨8 * (i 0).val + 7, hlt⟩ (0 : Fin 3) = (i 0).val := by
    rw [e0]; show (8 * (i 0).val + 7) / 8 = (i 0).val; omega
  intro a
  match a with
  | ⟨0, _⟩ =>
    show win0_2.index ⟨8 * (i 0).val + 7, hlt⟩ (0 : Fin 3) * 1 ≤ (i 0).val ∧ (i 0).val < win0_2.index ⟨8 * (i 0).val + 7, hlt⟩ (0 : Fin 3) * 1 + 1
    rw [e0']; omega
  | ⟨1, _⟩ =>
    show win0_2.index ⟨8 * (i 0).val + 7, hlt⟩ (1 : Fin 3) * 32 ≤ (i 1).val ∧ (i 1).val < win0_2.index ⟨8 * (i 0).val + 7, hlt⟩ (1 : Fin 3) * 32 + 32
    rw [e1]; omega
  | ⟨2, _⟩ =>
    show win0_2.index ⟨8 * (i 0).val + 7, hlt⟩ (2 : Fin 3) * 1024 ≤ (i 2).val ∧ (i 2).val < win0_2.index ⟨8 * (i 0).val + 7, hlt⟩ (2 : Fin 3) * 1024 + 1024
    rw [e2]; omega

/-- After the run the output array is the array of the two cores' partial sums. -/
theorem final (c : Dev nD) : (dats m 0 c).arrAt 2 cfg0.N = partials (m ((c : Thread nD τ).loc main_arg0)) (m ((c : Thread nD τ).loc main_arg1)) :=
  (dats m 0 c).arrAt_eq_of_cover 2 _ (flushed_eq m c) cover

end Cert.KernelIdeal.Partials

end
-- ==== Proof.Tail.lean ====
/-
  The host lines that follow the region, read as one function and then entry by entry.

  The region leaves the two cores' partial sums `p(c, o, d)`. The lines after it add them over the
  cores' axis from zero, scale by the float word `0x38000000` (`2⁻¹⁵`), scale row `o` by the weight
  `w o`, square, add over `d` from zero and take the square root: row `o` of the result is the
  Euclidean norm over `d` of `((0 + Σ_c p(c, o, d)) · 2⁻¹⁵) · w o`.
-/
import proofs.«147587_j89266600280080_2_alg».proof.Proof.Gen.KernelIdeal.Frame
import proofs.«147587_j89266600280080_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

namespace Cert.KernelIdeal.TailValue

open Cert.KernelIdeal Cert.KernelIdeal.Gen GradNorm Idealize.ShloMosaic Idealize.ShloMosaic.TcCoe Idealize.ShloMosaic.ValueIdx Idealize.SL.Sem

/-- The array the host lines square and sum: the two cores' partial sums added from zero over the
    cores' axis, scaled by the float word `0x38000000` and then by each row's weight. -/
def entries (p : FVec Ideal S2x32x1024 .f32) (w : FVec Ideal S32 .f32) : FVec Ideal S32x1024 .f32 :=
  mulf
    (mulf (Host.reduceAdd (F := Ideal) p (constant (F := Ideal) S_ .f32 0x00000000#32) reducesTo_S2x32x1024_S32x1024_d0 h_S_)
      (broadcastInDim S32x1024 ![] bcast_S_S32x1024 (constant (F := Ideal) S_ .f32 0x38000000#32)))
    (broadcastInDim S32x1024 ![0, 1] bcast_S32x1_S32x1024_0_1 (broadcastInDim S32x1 ![0] bcast_S32_S32x1_0 w))

/-- The host operations after the region as ONE function of the region's result array and of the weights. -/
def tail (p : FVec Ideal S2x32x1024 .f32) (w : FVec Ideal S32 .f32) : FVec Ideal S32 .f32 :=
  Host.sqrt (F := Ideal) (Host.reduceAdd (F := Ideal) (mulf (entries p w) (entries p w))
    (constant (F := Ideal) S_ .f32 0x00000000#32) reducesTo_S32x1024_S32_d1 h_S_)

/-- The result buffer after the host lines is `tail` of the region's result array and of the weights as
    launched: each line's result is its function of its operands' contents, the region's result array is
    read off the pipeline's arrays, and the weights, which no line writes and the pipeline does not
    stage, are read as launched. -/
theorem afterTail_eq (m : (ℓ : Loc nD τ sig) → Buf (Elt Ideal) ℓ) (c : Dev nD) :
    Pipeline.afterTail₀ cfgs (dats m) 0 (V0 m) [hostOps1] c main_v9
      = tail ((dats m 0 c).arrAt 2 cfg0.N) (m ((c : Thread nD τ).loc main_arg2)) := by
  unfold Pipeline.afterTail₀
  show StableHlo.after hostOps1 _ (Proc.devRef .tc main_v9) = _
  after_results
  have h0 : Pipeline.withArrays (cfgs 0).spec c (V0 m c) (fun w => (dats m 0 c).arrAt w (cfgs 0).N)
      (Proc.devRef .tc main_v0) = (dats m 0 c).arrAt 2 cfg0.N :=
    Pipeline.withArrays_arr spec0 launch0.win.arr_inj c _ _ 2
  have h2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [h0, h2]
  generalize (dats m 0 c).arrAt 2 cfg0.N = P
  generalize m ((c : Thread nD τ).loc main_arg2) = W
  rfl

/-- The sum over the cores' axis at an index: zero plus the two cores' entries. -/
theorem coreSum_apply (p : FVec Ideal S2x32x1024 .f32) (o : Fin 32) (d : Fin 1024) :
    Host.reduceAdd (F := Ideal) p (constant (F := Ideal) S_ .f32 0x00000000#32) reducesTo_S2x32x1024_S32x1024_d0 h_S_ (ix2 o d)
      = 0 + ∑ c : Fin 2, p (ix3 c o d) := by
  simp only [Host.reduceAdd, Ideal.hostReduceAdd_def]
  rw [Ideal.hostReduceAdd_single reducesTo_S2x32x1024_S32x1024_d0 (by decide)]
  refine congrArg₂ (· + ·) ?_ (Finset.sum_congr rfl fun k _ => ?_)
  · exact Ideal.ofBits_zero_f32
  · exact congrArg p (funext fun a => Fin.ext (by match a with | ⟨0, _⟩ => rfl | ⟨1, _⟩ => rfl | ⟨2, _⟩ => rfl))

/-- A scalar constant broadcast to the whole array reads as its value everywhere. -/
theorem scale_apply (b : BitVec 32) (j : S32x1024.Idx) :
    broadcastInDim S32x1024 ![] bcast_S_S32x1024 (constant (F := Ideal) S_ .f32 b) j = Ideal.ofBits .f32 b :=
  broadcastInDim_apply _ bcast_S_S32x1024 (constant (F := Ideal) S_ .f32 b) j (fun a => a.elim0) (fun a => a.elim0)

/-- The weights broadcast along the rows: entry `(o, d)` reads weight `o`. -/
theorem weight_apply (w : FVec Ideal S32 .f32) (o : Fin 32) (d : Fin 1024) :
    broadcastInDim S32x1024 ![0, 1] bcast_S32x1_S32x1024_0_1 (broadcastInDim S32x1 ![0] bcast_S32_S32x1_0 w) (ix2 o d)
      = w (ix1 o) := by
  generalize hy : broadcastInDim S32x1 ![0] bcast_S32_S32x1_0 w = y
  have e1 := broadcastInDim_apply _ bcast_S32x1_S32x1024_0_1 y (ix2 o d)
    (ix2 (⟨o.val, o.isLt⟩ : Fin 32) (⟨0, Nat.one_pos⟩ : Fin 1)) (fun a => match a with
      | ⟨0, _⟩ => by show o.val = if (32 : Nat) = 1 then 0 else o.val; rw [if_neg (by decide)]
      | ⟨1, _⟩ => by show 0 = if (1 : Nat) = 1 then 0 else d.val; rw [if_pos rfl])
  rw [e1, ← hy]
  exact broadcastInDim_apply _ bcast_S32_S32x1_0 w _ (ix1 o) (fun a => match a with
    | ⟨0, _⟩ => by show o.val = if (32 : Nat) = 1 then 0 else o.val; rw [if_neg (by decide)])

/-- An entry of the array the host lines square and sum. -/
theorem entries_apply (p : FVec Ideal S2x32x1024 .f32) (w : FVec Ideal S32 .f32) (o : Fin 32) (d : Fin 1024) :
    entries p w (ix2 o d) = ((0 + ∑ c : Fin 2, p (ix3 c o d)) * Ideal.ofBits .f32 0x38000000#32) * w (ix1 o) := by
  unfold entries
  rw [mulf_apply, mulf_apply, coreSum_apply, scale_apply, weight_apply]

/-- The result at row `o`: the Euclidean norm over `d` of the row's entries. -/
theorem tail_apply (p : FVec Ideal S2x32x1024 .f32) (w : FVec Ideal S32 .f32) (o : Fin 32) :
    tail p w (ix1 o) = rowNorm (fun o d => ((0 + ∑ c : Fin 2, p (ix3 c o d)) * Ideal.ofBits .f32 0x38000000#32) * w (ix1 o)) o := by
  unfold tail rowNorm
  show FloatOps.hostUnary .sqrt (Host.reduceAdd (F := Ideal) (mulf (entries p w) (entries p w))
    (constant (F := Ideal) S_ .f32 0x00000000#32) reducesTo_S32x1024_S32_d1 h_S_ (ix1 o)) = _
  rw [Ideal.hostUnary_sqrt_def]
  refine congrArg Ideal.sqrt ?_
  generalize hy : mulf (entries p w) (entries p w) = y
  simp only [Host.reduceAdd, Ideal.hostReduceAdd_def]
  rw [Ideal.hostReduceAdd_single reducesTo_S32x1024_S32_d1 (by decide)]
  refine congrArg₂ (· + ·) ?_ (Finset.sum_congr rfl fun k _ => ?_)
  · exact Ideal.ofBits_zero_f32
  · have e : (Shape.Reduces.lift (by decide : S32x1024.Reduces [1] S32) (ix1 o) k) = ix2 o (⟨k.val, k.isLt⟩ : Fin 1024) :=
      funext fun a => Fin.ext (by match a with | ⟨0, _⟩ => rfl | ⟨1, _⟩ => rfl)
    rw [e, ← hy]
    exact congrArg₂ (· * ·) (entries_apply p w o _) (entries_apply p w o _)

end Cert.KernelIdeal.TailValue

end
-- ==== Proof.KernelRun.lean ====
/-
  The idealized kernel program's run, read as values: every weakly fair execution ends with the
  result buffer at the host operations after the region applied to the two cores' partial sums
  (one function of the argument arrays) and to the weights, the argument arrays unchanged.
-/
import proofs.«147587_j89266600280080_2_alg».proof.Proof.Gen.KernelIdeal.Frame
import proofs.«147587_j89266600280080_2_alg».proof.Proof.Partials
import proofs.«147587_j89266600280080_2_alg».proof.Proof.Tail

set_option maxRecDepth 16384

noncomputable section

namespace Cert.KernelIdeal.KernelRun

open Cert.KernelIdeal Cert.KernelIdeal.Gen GradNorm Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result as one function of the argument arrays: the host operations after the region over the
    two cores' partial sums and the weights. -/
abbrev result (c : Dev nD) : Buf (Elt Ideal) ((c : Thread nD τ).loc main_v9) :=
  TailValue.tail (partials (m ((c : Thread nD τ).loc main_arg0)) (m ((c : Thread nD τ).loc main_arg1))) (m ((c : Thread nD τ).loc main_arg2))

/-- The run: the result buffer at `result`, the three argument arrays as launched. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans
        ((TailValue.afterTail_eq m c).trans
          (congrArg (fun p => TailValue.tail p (m ((c : Thread nD τ).loc main_arg2))) (Partials.final m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The flat side, read one element at a time: its result at task `o` is the square root of zero
  plus the sum over `d` of the squared quotient entries, and the quotient entry `(o, d)` is the sum
  over the batch rows `b` of `(a(b, o) · w o) · x(b, d)` divided by the float `32768`. The only work
  is identifying the composed index maps of the broadcasts, the contraction and the reduction
  with the coordinate indices `(b, o)`, `(b, d)`, `(o, d)` and `o`.
-/
import proofs.«147587_j89266600280080_2_alg».proof.Proof.Gen.ReferenceIdeal.Read
import proofs.«147587_j89266600280080_2_alg».proof.Proof.Spec

noncomputable section

namespace GradNorm

open Idealize.ShloMosaic Idealize.ShloMosaic.ValueIdx Cert.ReferenceIdeal

/-- The reduction's operand index at row `o`, column `d` is the index `(o, d)`. -/
theorem idx_v7_eq (o : Fin 32) (d : Fin 1024) : Read.idx_main_v7 (ix1 o) d = ix2 o d :=
  funext fun a => Fin.ext (by match a with | ⟨0, _⟩ => rfl | ⟨1, _⟩ => rfl)

/-- The contraction reads its left operand at `(b, o)` … -/
theorem lidx_v3_eq (o : Fin 32) (d : Fin 1024) (b : Fin 32768) : Read.lidx_main_v3 (ix2 o d) b = ix2 b o :=
  funext fun a => Fin.ext (by match a with | ⟨0, _⟩ => rfl | ⟨1, _⟩ => rfl)

/-- … and its right operand at `(b, d)`. -/
theorem ridx_v3_eq (o : Fin 32) (d : Fin 1024) (b : Fin 32768) : Read.ridx_main_v3 (ix2 o d) b = ix2 b d :=
  funext fun a => Fin.ext (by match a with | ⟨0, _⟩ => rfl | ⟨1, _⟩ => rfl)

/-- The weight vector broadcast along the batch reads, at `(b, o)`, the weight of task `o`. -/
theorem idx_v0_v1_eq (b : Fin 32768) (o : Fin 32) : Read.idx_main_v0 (Read.idx_main_v1 (ix2 b o)) = ix1 o :=
  funext fun a => Fin.ext (by match a with | ⟨0, _⟩ => rfl)

/-- Entry `(o, d)` of the quotient array is the flat side's entry. -/
theorem ref_entry (a : (⟨Cert.ReferenceIdeal.S32768x32, .f32⟩ : BufTy).Contents (Elt Ideal)) (x : (⟨Cert.ReferenceIdeal.S32768x1024, .f32⟩ : BufTy).Contents (Elt Ideal)) (w : (⟨Cert.ReferenceIdeal.S32, .f32⟩ : BufTy).Contents (Elt Ideal)) (o : Fin 32) (d : Fin 1024) :
    Cert.ReferenceIdeal.Read.val_main_v5 (F := Ideal) a x w (ix2 o d) = flatEntry a x w o d := by
  rw [Read.val_main_v5_apply, Read.val_main_v3_apply, Read.val_main_v4_apply, Read.val_main_cst_apply,
    Ideal.hostDivf_def, Ideal.ofBits_def]
  unfold flatEntry
  refine congrArg (fun s => Ideal.div s (Ideal.ofBits .f32 0x47000000#32)) (Finset.sum_congr rfl fun b _ => ?_)
  rw [lidx_v3_eq, ridx_v3_eq, Read.val_main_v2_apply, Read.val_main_v1_apply, Read.val_main_v0_apply, idx_v0_v1_eq,
    Ideal.mulf_def]

/-- The reference program's result at task `o`: the norm over `d` of the flat side's entries. -/
theorem ref_apply (a : (⟨Cert.ReferenceIdeal.S32768x32, .f32⟩ : BufTy).Contents (Elt Ideal)) (x : (⟨Cert.ReferenceIdeal.S32768x1024, .f32⟩ : BufTy).Contents (Elt Ideal)) (w : (⟨Cert.ReferenceIdeal.S32, .f32⟩ : BufTy).Contents (Elt Ideal)) (o : Fin 32) :
    Cert.ReferenceIdeal.Read.val_main_v8 (F := Ideal) a x w (ix1 o) = rowNorm (flatEntry a x w) o := by
  rw [Read.val_main_v8_apply, Read.val_main_v7_apply, Read.val_main_cst_0_apply, Ideal.hostUnary_sqrt_def, Ideal.ofBits_def, Ideal.ofBits_zero_f32]
  unfold rowNorm
  refine congrArg (fun s => Ideal.sqrt (0 + s)) (Finset.sum_congr rfl fun d _ => ?_)
  rw [Read.val_main_v6_apply, Ideal.mulf_def, idx_v7_eq, ref_entry]

end GradNorm

end
-- ==== Proof.FiniteInputs.lean ====
/-
  The precondition says, of each of the three argument arrays, that every element has absolute
  value below `+∞`. Over the extended reals that is: every element is a real number. (`|v| < ⊤`
  with `|v| = max v (-v)` fails at `v = ⊤` and at `v = ⊥`, where `-v = ⊤`.)
-/
import proofs.«147587_j89266600280080_2_alg».proof.Pre_finite_inputs
import Idealize.ShloMosaic.Lib.ReduceAll
import Idealize.ShloMosaic.Lib.ValueIdx
import Idealize.ShloMosaic.PureOps.Ideal.Laws

noncomputable section

namespace GradNorm

open Idealize.ShloMosaic Idealize.ShloMosaic.ValueIdx

/-- The scalar shape has one index. -/
local instance : Subsingleton Cert.Pre_finite_inputs.S_.Idx := ⟨fun a b => funext fun d => d.elim0⟩

/-- An extended real whose absolute value compares below the float word `0x7F800000` (`+∞`) is a
    real number: `max v (-v) < ⊤` excludes both `v = ⊤` and `v = ⊥`. -/
theorem real_of_lt_inf (v : EReal)
    (h : FloatOps.cmpf (F := Ideal) (φ := .f32) .olt (FloatOps.hostAbsf (F := Ideal) (φ := .f32) v) (FloatOps.ofBits (F := Ideal) .f32 0x7F800000#32) = 1#1) :
    ∃ r : ℝ, v = (r : EReal) := by
  rw [Ideal.hostAbsf_def, Ideal.absf_def, Ideal.cmpf_def, Ideal.ofBits_def] at h
  have hinf : Ideal.ofBits .f32 0x7F800000#32 = ⊤ := by simp [Ideal.ofBits, Ideal.ieee]
  rw [hinf] at h
  simp only [Ideal.cmp] at h
  induction v using EReal.rec with
  | bot => simp at h
  | top => simp at h
  | coe r => exact ⟨r, rfl⟩

/-- The precondition holding (its one-bit result is 1) makes every element of the three arrays a
    real number: the result is the conjunction of three `all`s, each a reduction by `and` from 1,
    so each compared element is 1, and each comparison is `|v| < +∞`. -/
theorem real_of_pre [Cert.Pre_finite_inputs.Facts] (a : FVec Ideal Cert.Pre_finite_inputs.S32768x32 .f32) (x : FVec Ideal Cert.Pre_finite_inputs.S32768x1024 .f32) (w : FVec Ideal Cert.Pre_finite_inputs.S32 .f32)
    (h : Cert.Pre_finite_inputs.fn (F := Ideal) a x w = fun _ => 1#1) :
    (∀ i, ∃ r : ℝ, a i = (r : EReal)) ∧ (∀ i, ∃ r : ℝ, x i = (r : EReal)) ∧ (∀ i, ∃ r : ℝ, w i = (r : EReal)) := by
  have h0 := congrFun h ValueIdx.ix0
  dsimp only [Cert.Pre_finite_inputs.fn] at h0
  obtain ⟨h12, h3⟩ := IntOp.andi_eq_one.1 (show IntOp.andi (IntOp.andi _ _) _ = 1#1 from h0)
  obtain ⟨h1, h2⟩ := IntOp.andi_eq_one.1 h12
  refine ⟨fun i => real_of_lt_inf (a i) ?_, fun i => real_of_lt_inf (x i) ?_, fun i => real_of_lt_inf (w i) ?_⟩
  · exact Host.reduce_andi_all _ _ _ _ _ h1 i
  · exact Host.reduce_andi_all _ _ _ _ _ h2 i
  · exact Host.reduce_andi_all _ _ _ _ _ h3 i

end GradNorm

end
-- ==== Proof.RealSums.lean ====
/-
  Sums over the batch, cut into cores, tiles and rows, and the passage of such sums between the
  reals and the extended reals.

  * The coercion of the reals into the extended reals commutes with finite sums.
  * Every batch row `b < 32768` is `2048 · t + r` for exactly one tile `t < 16` and row `r < 2048`,
    and every tile `t < 16` is `8 · c + i` for exactly one core `c < 2` and `i < 8`; so a sum over
    the batch is the triple sum over cores, tiles and rows.
  * With real inputs, scaling the blocked sum of products by `1 / 32768` and then by the weight is
    the same as weighting every row first, summing, and scaling by `1 / 32768`.
-/
import Mathlib
import proofs.«147587_j89266600280080_2_alg».proof.Proof.Rows

namespace GradNorm

open scoped BigOperators

/-- The coercion `ℝ → EReal` commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Tile and row number a batch row: `(t, r) ↦ 2048 · t + r` is a bijection onto `Fin 32768`,
    with inverse `b ↦ (b / 2048, b % 2048)`. -/
def tileRowEquiv : Fin 16 × Fin 2048 ≃ Fin 32768 where
  toFun p := tileRow p.1 p.2
  invFun b := (⟨b.val / 2048, by have := b.isLt; omega⟩, ⟨b.val % 2048, by omega⟩)
  left_inv p := by
    rcases p with ⟨t, r⟩
    have ht := t.isLt
    have hr := r.isLt
    refine Prod.ext (Fin.ext ?_) (Fin.ext ?_)
    · show (2048 * t.val + r.val) / 2048 = t.val
      omega
    · show (2048 * t.val + r.val) % 2048 = r.val
      omega
  right_inv b := by
    refine Fin.ext ?_
    show 2048 * (b.val / 2048) + b.val % 2048 = b.val
    omega

/-- Core and tile-within-core number a tile: `(c, i) ↦ 8 · c + i` is a bijection onto `Fin 16`,
    with inverse `t ↦ (t / 8, t % 8)`. -/
def coreTileEquiv : Fin 2 × Fin 8 ≃ Fin 16 where
  toFun p := coreTile p.1 p.2
  invFun t := (⟨t.val / 8, by have := t.isLt; omega⟩, ⟨t.val % 8, by omega⟩)
  left_inv p := by
    rcases p with ⟨c, i⟩
    have hc := c.isLt
    have hi := i.isLt
    refine Prod.ext (Fin.ext ?_) (Fin.ext ?_)
    · show (8 * c.val + i.val) / 8 = c.val
      omega
    · show (8 * c.val + i.val) % 8 = i.val
      omega
  right_inv t := by
    refine Fin.ext ?_
    show 8 * (t.val / 8) + t.val % 8 = t.val
    omega

/-- A sum over the batch is the sum over cores, tiles of the core, and rows of the tile. -/
theorem sum_rows {M : Type*} [AddCommMonoid M] (f : Fin 32768 → M) :
    ∑ b : Fin 32768, f b = ∑ c : Fin 2, ∑ i : Fin 8, ∑ r : Fin 2048, f (tileRow (coreTile c i) r) := by
  have h1 : ∑ b : Fin 32768, f b = ∑ t : Fin 16, ∑ r : Fin 2048, f (tileRow t r) := by
    rw [← Equiv.sum_comp tileRowEquiv f, Fintype.sum_prod_type]
    rfl
  have h2 : ∀ g : Fin 16 → M, ∑ t : Fin 16, g t = ∑ c : Fin 2, ∑ i : Fin 8, g (coreTile c i) := by
    intro g
    rw [← Equiv.sum_comp coreTileEquiv g, Fintype.sum_prod_type]
    rfl
  rw [h1, h2]

/-- With real inputs, the blocked sum of products scaled by `1 / 32768` and then by the weight
    equals the weighted rows summed over the batch and scaled by `1 / 32768`: the weight, a real,
    moves through the finite sum. -/
theorem weighted_batch_sum (a x : Fin 32768 → ℝ) (w : ℝ) :
    ((0 + ∑ c : Fin 2, ∑ i : Fin 8, ∑ r : Fin 2048,
          ((a (tileRow (coreTile c i) r) : ℝ) : EReal) * ((x (tileRow (coreTile c i) r) : ℝ) : EReal))
        * ((1 / 32768 : ℝ) : EReal)) * ((w : ℝ) : EReal)
      = (∑ b : Fin 32768, (((a b : ℝ) : EReal) * ((w : ℝ) : EReal)) * ((x b : ℝ) : EReal))
          * ((1 / 32768 : ℝ) : EReal) := by
  have hreal :
      ((∑ c : Fin 2, ∑ i : Fin 8, ∑ r : Fin 2048,
            a (tileRow (coreTile c i) r) * x (tileRow (coreTile c i) r)) * (1 / 32768 : ℝ)) * w
        = (∑ b : Fin 32768, (a b * w) * x b) * (1 / 32768 : ℝ) := by
    rw [sum_rows (fun b => (a b * w) * x b)]
    simp only [Finset.sum_mul]
    refine Finset.sum_congr rfl fun c _ => Finset.sum_congr rfl fun i _ =>
      Finset.sum_congr rfl fun r _ => ?_
    ring
  have h := congrArg (fun t : ℝ => (t : EReal)) hreal
  simp only [EReal.coe_mul, coe_finset_sum] at h
  rw [zero_add]
  exact h

end GradNorm
-- ==== Proof.Consts.lean ====
/-
  The two float words both programs spell for the batch size, as the extended reals they denote:
  `0x38000000` (exponent field 112, zero fraction) is `2⁻¹⁵ = 1 / 32768`, and
  `0x47000000` (exponent field 142, zero fraction) is `2¹⁵ = 32768`.
-/
import Idealize.ShloMosaic.PureOps.Ideal

noncomputable section

namespace GradNorm

open Idealize.ShloMosaic

/-- The word `0x38000000` denotes the real `1 / 32768`. -/
theorem ofBits_inv_batch : Ideal.ofBits .f32 0x38000000#32 = ((1 / 32768 : ℝ) : EReal) := by
  simp [Ideal.ofBits, Ideal.ieee, -EReal.coe_mul]; norm_num

/-- The word `0x47000000` denotes the real `32768`. -/
theorem ofBits_batch : Ideal.ofBits .f32 0x47000000#32 = ((32768 : ℝ) : EReal) := by
  simp [Ideal.ofBits, Ideal.ieee, -EReal.coe_mul]; norm_num

end GradNorm

end
-- ==== Proof.EntryBridge.lean ====
/-
  The two programs' entries agree on real inputs.

  When every element of the three arrays is a real number, the blocked entry
  `((0 + Σ_c Σ_i Σ_r a(row, o) · x(row, d)) · 2⁻¹⁵) · w o` and the flat entry
  `(Σ_b (a(b, o) · w o) · x(b, d)) / 32768` are the same extended real: the two float words
  denote `1 / 32768` and `32768`, dividing by the nonzero real `32768` is multiplying by
  `1 / 32768`, and what is left is an identity between finite sums of reals.
-/
import proofs.«147587_j89266600280080_2_alg».proof.Proof.Spec
import proofs.«147587_j89266600280080_2_alg».proof.Proof.RealSums
import proofs.«147587_j89266600280080_2_alg».proof.Proof.Consts

noncomputable section

namespace GradNorm

open Idealize.ShloMosaic Idealize.ShloMosaic.ValueIdx

/-- On real inputs the blocked entry and the flat entry are equal. -/
theorem blockedEntry_eq_flatEntry (a : SA.Idx → EReal) (x : SX.Idx → EReal) (w : SW.Idx → EReal)
    (ha : ∀ i, ∃ r : ℝ, a i = (r : EReal)) (hx : ∀ i, ∃ r : ℝ, x i = (r : EReal))
    (hw : ∀ i, ∃ r : ℝ, w i = (r : EReal))
    (o : Fin 32) (d : Fin 1024) : blockedEntry a x w o d = flatEntry a x w o d := by
  choose a' ha' using ha
  choose x' hx' using hx
  choose w' hw' using hw
  obtain rfl : a = fun i => ((a' i : ℝ) : EReal) := funext ha'
  obtain rfl : x = fun i => ((x' i : ℝ) : EReal) := funext hx'
  obtain rfl : w = fun i => ((w' i : ℝ) : EReal) := funext hw'
  unfold blockedEntry flatEntry corePartial tileDot
  rw [ofBits_inv_batch, ofBits_batch, Ideal.div_coe (by norm_num : (32768 : ℝ) ≠ 0)]
  exact weighted_batch_sum (fun b => a' (ix2 b o)) (fun b => x' (ix2 b d)) (w' (ix1 o))

end GradNorm

end
-- ==== Proof.lean ====
/-
  The claim: the blocked gradient-norm kernel and its flat reference agree over the extended reals.

  Both programs return, for each of 32 tasks `o`, the Euclidean norm over 1024 columns `d` of an
  entry `E(o, d)`. The kernel forms `Σ_b out(b, o) · in(b, d)` over the 32768 batch rows in two
  halves (one per core), each half in eight tiles of 2048 rows accumulated in a scratch block that
  is reset at the half's first tile and written out after its last; the host then adds the two
  halves, scales by `2⁻¹⁵` and by the task's weight. The reference weights every row first, sums
  over the whole batch and divides by `32768`. When every input is a real number — which the
  precondition says — the weight moves through the sum, the three-level blocked sum is the flat
  one, and dividing by `2¹⁵` is multiplying by `2⁻¹⁵`: the entries, hence the norms, are equal.
  The three frames are the generated frame certificates and the reference's generated run; the
  idealization rewrote nothing, so `preserves` is trivial.
-/
import proofs.«147587_j89266600280080_2_alg».proof.Defs
import proofs.«147587_j89266600280080_2_alg».proof.Proof.Gen.Kernel
import proofs.«147587_j89266600280080_2_alg».proof.Proof.Gen.Kernel.Skeleton
import proofs.«147587_j89266600280080_2_alg».proof.Proof.Gen.Kernel.Launch
import proofs.«147587_j89266600280080_2_alg».proof.Proof.Gen.Kernel.Points
import proofs.«147587_j89266600280080_2_alg».proof.Proof.Gen.Kernel.Frame
import proofs.«147587_j89266600280080_2_alg».proof.Proof.Gen.KernelIdeal
import proofs.«147587_j89266600280080_2_alg».proof.Proof.Gen.KernelIdeal.Skeleton
import proofs.«147587_j89266600280080_2_alg».proof.Proof.Gen.KernelIdeal.Launch
import proofs.«147587_j89266600280080_2_alg».proof.Proof.Gen.KernelIdeal.Points
import proofs.«147587_j89266600280080_2_alg».proof.Proof.Gen.KernelIdeal.Frame
import proofs.«147587_j89266600280080_2_alg».proof.Proof.Gen.ReferenceIdeal
import proofs.«147587_j89266600280080_2_alg».proof.Proof.Gen.Pre_finite_inputs
import proofs.«147587_j89266600280080_2_alg».proof.Proof.Gen.ReferenceIdeal.Run
import proofs.«147587_j89266600280080_2_alg».proof.Proof.Gen.ReferenceIdeal.Read
import Idealize.ShloMosaic.Adequacy
import Idealize.ShloMosaic.Init

import proofs.«147587_j89266600280080_2_alg».proof.Proof.KernelRun
import proofs.«147587_j89266600280080_2_alg».proof.Proof.RefValue
import proofs.«147587_j89266600280080_2_alg».proof.Proof.FiniteInputs
import proofs.«147587_j89266600280080_2_alg».proof.Proof.EntryBridge

noncomputable section

namespace Cert.Proof

open Idealize.ShloMosaic Idealize.ShloMosaic.TcCoe Idealize.ShloMosaic.ValueIdx Idealize.SL.Sem GradNorm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On real inputs the two programs' results are one function of the argument arrays: task by task
    the norm of the blocked entries is the norm of the flat entries. -/
theorem results_agree (a : SA.Idx → EReal) (x : SX.Idx → EReal) (w : SW.Idx → EReal)
    (ha : ∀ i, ∃ r : ℝ, a i = (r : EReal)) (hx : ∀ i, ∃ r : ℝ, x i = (r : EReal)) (hw : ∀ i, ∃ r : ℝ, w i = (r : EReal)) :
    Cert.ReferenceIdeal.Read.val_main_v8 (F := Ideal) a x w = Cert.KernelIdeal.TailValue.tail (partials a x) w := by
  funext j
  obtain ⟨o, rfl⟩ : ∃ o : Fin 32, j = ix1 o := ⟨j 0, eq_ix1 j⟩
  rw [ref_apply, Cert.KernelIdeal.TailValue.tail_apply]
  unfold rowNorm
  refine congrArg Ideal.sqrt (congrArg (0 + ·) (Finset.sum_congr rfl fun d _ => ?_))
  have h := blockedEntry_eq_flatEntry a x w ha hx hw o d
  rw [← h]
  rfl

theorem algebraic : Cert.algebraic_KernelIdeal_ReferenceIdeal := by
  intro m ρ m' ρ' hpre hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v8_eq]
  obtain ⟨ha, hx, hw⟩ := real_of_pre _ _ _ (hpre c)
  exact results_agree _ _ _ ha hx hw

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
